-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S10000x128 : Shape := ⟨2, ![10000, 128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S100000x64 : Shape := ⟨2, ![100000, 64]⟩
abbrev S10000x64 : Shape := ⟨2, ![10000, 64]⟩
abbrev S640000x64 : Shape := ⟨2, ![640000, 64]⟩
abbrev S1x64 : Shape := ⟨2, ![1, 64]⟩

abbrev nBuf : Space → Nat
  | .hbm => 58
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S100000x128, .f32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x128, .f32⟩
  | .hbm, ⟨22, _⟩ => ⟨S_, .f32⟩
  | .hbm, ⟨23, _⟩ => ⟨S100000x128, .f32⟩
  | .hbm, ⟨24, _⟩ => ⟨S640000x1, .i32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S_, .i32⟩
  | .hbm, ⟨29, _⟩ => ⟨S640000, .i32⟩
  | .hbm, ⟨30, _⟩ => ⟨S640000, .i1⟩
  | .hbm, ⟨31, _⟩ => ⟨S_, .i32⟩
  | .hbm, ⟨32, _⟩ => ⟨S640000, .i32⟩
  | .hbm, ⟨33, _⟩ => ⟨S640000, .i32⟩
  | .hbm, ⟨34, _⟩ => ⟨S640000, .i32⟩
  | .hbm, ⟨35, _⟩ => ⟨S640000x1, .i32⟩
  | .hbm, ⟨36, _⟩ => ⟨S640000x128, .f32⟩
  | .hbm, ⟨37, _⟩ => ⟨S_, .f32⟩
  | .hbm, ⟨38, _⟩ => ⟨S100000x128, .f32⟩
  | .hbm, ⟨39, _⟩ => ⟨S640000x1, .i32⟩
  | .hbm, ⟨40, _⟩ => ⟨S100000x128, .f32⟩
  | .hbm, ⟨41, _⟩ => ⟨S1x128, .f32⟩
  | .hbm, ⟨42, _⟩ => ⟨S100000x64, .f32⟩
  | .hbm, ⟨43, _⟩ => ⟨S_, .i32⟩
  | .hbm, ⟨44, _⟩ => ⟨S640000, .i32⟩
  | .hbm, ⟨45, _⟩ => ⟨S640000, .i1⟩
  | .hbm, ⟨46, _⟩ => ⟨S_, .i32⟩
  | .hbm, ⟨47, _⟩ => ⟨S640000, .i32⟩
  | .hbm, ⟨48, _⟩ => ⟨S640000, .i32⟩
  | .hbm, ⟨49, _⟩ => ⟨S640000, .i32⟩
  | .hbm, ⟨50, _⟩ => ⟨S640000x1, .i32⟩
  | .hbm, ⟨51, _⟩ => ⟨S640000x64, .f32⟩
  | .hbm, ⟨52, _⟩ => ⟨S_, .f32⟩
  | .hbm, ⟨53, _⟩ => ⟨S100000x64, .f32⟩
  | .hbm, ⟨54, _⟩ => ⟨S640000x1, .i32⟩
  | .hbm, ⟨55, _⟩ => ⟨S100000x64, .f32⟩
  | .hbm, ⟨56, _⟩ => ⟨S1x64, .f32⟩
  | .hbm, ⟨57, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S128x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  dot_S10000x128_S128x128_S10000x128_1_0_0_1_n_n_wf : DotDims.WF S10000x128 S128x128 S10000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S10000x128_S128x64_S10000x64_1_0_0_1_n_n_wf : DotDims.WF S10000x128 S128x64 S10000x64 [1] [0] [0] [1] [] []
  gather_S100000x64_S640000x1_S640000x64_1_0_n_n_0_1_164_wf : GatherDims.WF S100000x64 S640000x1 S640000x64 [1] [0] [] [0] [] 1 ![1, 64]
  scatter_S100000x64_S640000x1_S640000x64_1_0_0_1_wf : ScatterDims.WF S100000x64 S640000x1 S640000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S640000x1_S640000x64_1_0_n_n_0_1_164 : GatherDims S100000x64 S640000x1 S640000x64 where
  offsetDims := [1]
  collapsedSliceDims := [0]
  operandBatchingDims := []
  startIndicesBatchingDims := []
  startIndexMap := [0]
  indexVectorDim := 1
  sliceSizes := ![1, 64]
  wf := gather_S100000x64_S640000x1_S640000x64_1_0_n_n_0_1_164_wf
def scatter_S100000x64_S640000x1_S640000x64_1_0_0_1 : ScatterDims S100000x64 S640000x1 S640000x64 where
  updateWindowDims := [1]
  insertedWindowDims := [0]
  scatterDimsToOperandDims := [0]
  indexVectorDim := 1
  wf := scatter_S100000x64_S640000x1_S640000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v26) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v38) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v40) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S100000x64 : Shape := ⟨2, ![100000, 64]⟩
abbrev S640000x64 : Shape := ⟨2, ![640000, 64]⟩
abbrev S1x64 : Shape := ⟨2, ![1, 64]⟩

abbrev nBuf : Space → Nat
  | .hbm => 69
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S100000x128, .f32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x128, .f32⟩
  | .hbm, ⟨22, _⟩ => ⟨S_, .f32⟩
  | .hbm, ⟨23, _⟩ => ⟨S100000x128, .f32⟩
  | .hbm, ⟨24, _⟩ => ⟨S640000x1, .i32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S_, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S_, .i32⟩
  | .hbm, ⟨34, _⟩ => ⟨S640000, .i32⟩
  | .hbm, ⟨35, _⟩ => ⟨S640000, .i1⟩
  | .hbm, ⟨36, _⟩ => ⟨S_, .i32⟩
  | .hbm, ⟨37, _⟩ => ⟨S640000, .i32⟩
  | .hbm, ⟨38, _⟩ => ⟨S640000, .i32⟩
  | .hbm, ⟨39, _⟩ => ⟨S640000, .i32⟩
  | .hbm, ⟨40, _⟩ => ⟨S640000x1, .i32⟩
  | .hbm, ⟨41, _⟩ => ⟨S640000x128, .f32⟩
  | .hbm, ⟨42, _⟩ => ⟨S_, .f32⟩
  | .hbm, ⟨43, _⟩ => ⟨S100000x128, .f32⟩
  | .hbm, ⟨44, _⟩ => ⟨S640000x1, .i32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S100000x64, .f32⟩
  | .hbm, ⟨53, _⟩ => ⟨S_, .i32⟩
  | .hbm, ⟨54, _⟩ => ⟨S640000, .i32⟩
  | .hbm, ⟨55, _⟩ => ⟨S640000, .i1⟩
  | .hbm, ⟨56, _⟩ => ⟨S_, .i32⟩
  | .hbm, ⟨57, _⟩ => ⟨S640000, .i32⟩
  | .hbm, ⟨58, _⟩ => ⟨S640000, .i32⟩
  | .hbm, ⟨59, _⟩ => ⟨S640000, .i32⟩
  | .hbm, ⟨60, _⟩ => ⟨S640000x1, .i32⟩
  | .hbm, ⟨61, _⟩ => ⟨S640000x64, .f32⟩
  | .hbm, ⟨62, _⟩ => ⟨S_, .f32⟩
  | .hbm, ⟨63, _⟩ => ⟨S100000x64, .f32⟩
  | .hbm, ⟨64, _⟩ => ⟨S640000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_cst : Ref sig .tc := ⟨.hbm, 49, rfl⟩
abbrev main_call1_v0 : Ref sig .tc := ⟨.hbm, 50, rfl⟩
abbrev main_v33 : Ref sig .tc := ⟨.hbm, 51, rfl⟩
abbrev main_v34 : Ref sig .tc := ⟨.hbm, 52, rfl⟩
abbrev main_c_4 : Ref sig .tc := ⟨.hbm, 53, rfl⟩
abbrev main_v35 : Ref sig .tc := ⟨.hbm, 54, rfl⟩
abbrev main_v36 : Ref sig .tc := ⟨.hbm, 55, rfl⟩
abbrev main_c_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x64_S100000x64_1_0_0_1_n_n_wf : DotDims.WF S100000x128 S128x64 S100000x64 [1] [0] [0] [1] [] []
  gather_S100000x64_S640000x1_S640000x64_1_0_n_n_0_1_164_wf : GatherDims.WF S100000x64 S640000x1 S640000x64 [1] [0] [] [0] [] 1 ![1, 64]
  scatter_S100000x64_S640000x1_S640000x64_1_0_0_1_wf : ScatterDims.WF S100000x64 S640000x1 S640000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S640000x1_S640000x64_1_0_n_n_0_1_164 : GatherDims S100000x64 S640000x1 S640000x64 where
  offsetDims := [1]
  collapsedSliceDims := [0]
  operandBatchingDims := []
  startIndicesBatchingDims := []
  startIndexMap := [0]
  indexVectorDim := 1
  sliceSizes := ![1, 64]
  wf := gather_S100000x64_S640000x1_S640000x64_1_0_n_n_0_1_164_wf
def scatter_S100000x64_S640000x1_S640000x64_1_0_0_1 : ScatterDims S100000x64 S640000x1 S640000x64 where
  updateWindowDims := [1]
  insertedWindowDims := [0]
  scatterDimsToOperandDims := [0]
  indexVectorDim := 1
  wf := scatter_S100000x64_S640000x1_S640000x64_1_0_0_1_wf

class Facts : Prop extends Facts₀ where

variable [Facts]
-- ==== Proof.KernelRun.lean ====
/-
  The idealized kernel's run with its result named.

  @main is eight segments: four stretches of host operations (the slicing of the edge list, then three
  gather / scatter-add aggregations each followed by the reshape of a bias) alternating with four
  pipelined regions (a matmul, two fused bias + relu + matmul kernels, a bias add).  The launch theorem
  for such a chain of segments ends with every unscoped buffer of the TensorCore at the contents the
  last boundary names; read at the result buffer this is the last region's output array after all its
  write-backs, and read at an argument it is the launch contents.
-/
import proofs.«165635_j52836687675913_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents (region 3's output array after its write-backs) and every argument as launched. -/
theorem run : θ_run defs (onTc (τ := τ) (main (F := F))) ⟨m, fun _ => 0, ρ⟩ (fun r => ∀ c : Dev nD,
      r.2.mem ((c.tc : Thread nD τ).loc main_v40) = W8 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v40 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Run

end
-- ==== Proof.HostChain.lean ====
/-
  What the TensorCore's buffers hold at each boundary between the kernel's segments, at the buffers
  later segments read.

  The first stretch of host operations slices the edge list into its source and destination vectors;
  they are the vectors the reference slices, and every later stretch reads them unchanged.  Each later
  stretch normalises the source vector (a negative index has the node count added), gathers the rows of
  the previous region's output at it, and scatter-adds the gathered rows into a zero array at the
  destination vector: operation for operation the reference's aggregation, so once the previous region's
  output is known to be the reference's stage, the aggregated array is the reference's next stage with
  nothing opened.  The same stretch reshapes the layer's bias [n] to [1, n]: entry (0, k) is entry k.
  A region changes none of these buffers but its own output.
-/
import proofs.«165635_j52836687675913_1_alg».proof.Proof.Gen.KernelIdeal.Frame
import proofs.«165635_j52836687675913_1_alg».proof.Proof.Gen.ReferenceIdeal.Read
import Idealize.ShloMosaic.Lib.StableHlo.Run
import Idealize.ShloMosaic.Lib.Pipeline.Value
import Idealize.ShloMosaic.Lib.ValueIdx

set_option maxRecDepth 16384

noncomputable section

namespace Cert.KernelIdeal.Chain

open Idealize.ShloMosaic Idealize.ShloMosaic.TcCoe Idealize.SL.Sem Idealize.ShloMosaic.Pipeline Idealize.ShloMosaic.StableHlo
open Idealize.ShloMosaic.ValueIdx
open Cert.KernelIdeal Cert.KernelIdeal.Gen
open Cert.ReferenceIdeal.Read (val_main_v1 val_main_v3 val_main_v4 val_main_v14 val_main_v19 val_main_v29 val_main_v34 val_main_v44)

variable (m : (ℓ : Loc nD τ sig) → Buf (Elt Ideal) ℓ) (ρ : Dev nD → PrngReg) (c : Dev nD)

/-! ## After the slicing of the edge list (region 0's entry) -/

/-- The source vector is the reference's. -/
theorem W1_v1 : W1 m ρ c (Proc.devRef .tc main_v1) = val_main_v1 (F := Ideal) (m ((c.tc : Thread nD τ).loc main_arg1)) := by
  dsimp only [W1, hostOps0]; after_results; rfl
/-- The destination vector is the reference's. -/
theorem W1_v3 : W1 m ρ c (Proc.devRef .tc main_v3) = val_main_v3 (F := Ideal) (m ((c.tc : Thread nD τ).loc main_arg1)) := by
  dsimp only [W1, hostOps0]; after_results; rfl
theorem W1_arg0 : W1 m ρ c (Proc.devRef .tc main_arg0) = (m ((c.tc : Thread nD τ).loc main_arg0)) := by
  dsimp only [W1, hostOps0]; after_results
theorem W1_arg2 : W1 m ρ c (Proc.devRef .tc main_arg2) = (m ((c.tc : Thread nD τ).loc main_arg2)) := by
  dsimp only [W1, hostOps0]; after_results
theorem W1_arg3 : W1 m ρ c (Proc.devRef .tc main_arg3) = (m ((c.tc : Thread nD τ).loc main_arg3)) := by
  dsimp only [W1, hostOps0]; after_results
theorem W1_arg4 : W1 m ρ c (Proc.devRef .tc main_arg4) = (m ((c.tc : Thread nD τ).loc main_arg4)) := by
  dsimp only [W1, hostOps0]; after_results
theorem W1_arg5 : W1 m ρ c (Proc.devRef .tc main_arg5) = (m ((c.tc : Thread nD τ).loc main_arg5)) := by
  dsimp only [W1, hostOps0]; after_results
theorem W1_arg6 : W1 m ρ c (Proc.devRef .tc main_arg6) = (m ((c.tc : Thread nD τ).loc main_arg6)) := by
  dsimp only [W1, hostOps0]; after_results
theorem W1_arg7 : W1 m ρ c (Proc.devRef .tc main_arg7) = (m ((c.tc : Thread nD τ).loc main_arg7)) := by
  dsimp only [W1, hostOps0]; after_results

/-! ## After region 0 -/

theorem W2_v1 : W2 m ρ c (Proc.devRef .tc main_v1) = val_main_v1 (F := Ideal) (m ((c.tc : Thread nD τ).loc main_arg1)) :=
  (W2_of_ne m ρ c main_v1 (by decide)).trans (W1_v1 m ρ c)
theorem W2_v3 : W2 m ρ c (Proc.devRef .tc main_v3) = val_main_v3 (F := Ideal) (m ((c.tc : Thread nD τ).loc main_arg1)) :=
  (W2_of_ne m ρ c main_v3 (by decide)).trans (W1_v3 m ρ c)
theorem W2_arg3 : W2 m ρ c (Proc.devRef .tc main_arg3) = (m ((c.tc : Thread nD τ).loc main_arg3)) :=
  (W2_of_ne m ρ c main_arg3 (by decide)).trans (W1_arg3 m ρ c)
theorem W2_arg4 : W2 m ρ c (Proc.devRef .tc main_arg4) = (m ((c.tc : Thread nD τ).loc main_arg4)) :=
  (W2_of_ne m ρ c main_arg4 (by decide)).trans (W1_arg4 m ρ c)
theorem W2_arg5 : W2 m ρ c (Proc.devRef .tc main_arg5) = (m ((c.tc : Thread nD τ).loc main_arg5)) :=
  (W2_of_ne m ρ c main_arg5 (by decide)).trans (W1_arg5 m ρ c)
theorem W2_arg6 : W2 m ρ c (Proc.devRef .tc main_arg6) = (m ((c.tc : Thread nD τ).loc main_arg6)) :=
  (W2_of_ne m ρ c main_arg6 (by decide)).trans (W1_arg6 m ρ c)
theorem W2_arg7 : W2 m ρ c (Proc.devRef .tc main_arg7) = (m ((c.tc : Thread nD τ).loc main_arg7)) :=
  (W2_of_ne m ρ c main_arg7 (by decide)).trans (W1_arg7 m ρ c)

/-! ## After the first aggregation (region 1's entry) -/

set_option maxHeartbeats 1600000 in
/-- The aggregated messages are the reference's stage, once the region output they are gathered from is. -/
theorem W3_v14 (h : W2 m ρ c (Proc.devRef .tc main_v4) = val_main_v4 (F := Ideal) (m ((c.tc : Thread nD τ).loc main_arg0)) (m ((c.tc : Thread nD τ).loc main_arg2))) :
    W3 m ρ c (Proc.devRef .tc main_v14) = val_main_v14 (F := Ideal) (m ((c.tc : Thread nD τ).loc main_arg0)) (m ((c.tc : Thread nD τ).loc main_arg1)) (m ((c.tc : Thread nD τ).loc main_arg2)) := by
  dsimp only [W3, hostOps1]; after_results
  rw [h, W2_v1 m ρ c, W2_v3 m ρ c]; rfl
/-- The reshaped bias: entry (0, k) is the bias's entry k. -/
theorem W3_v15 (k : Fin 128) : W3 m ρ c (Proc.devRef .tc main_v15) (ix2 (0 : Fin 1) k) = (m ((c.tc : Thread nD τ).loc main_arg3)) (ix1 k) := by
  dsimp only [W3, hostOps1]; after_results
  rw [W2_arg3 m ρ c]
  show shapeCast S1x128 (m ((c.tc : Thread nD τ).loc main_arg3)) shapeCasts_S128_S1x128 (ix2 (0 : Fin 1) k) = _
  exact shapeCast_apply _ _ _ (ix1 k) (by
    rw [Shape.rowMajor_val_one, Shape.rowMajor_val_two]; show k.val = 0 * 128 + k.val; omega)
theorem W3_v1 : W3 m ρ c (Proc.devRef .tc main_v1) = val_main_v1 (F := Ideal) (m ((c.tc : Thread nD τ).loc main_arg1)) := by
  dsimp only [W3, hostOps1]; after_results; exact W2_v1 m ρ c
theorem W3_v3 : W3 m ρ c (Proc.devRef .tc main_v3) = val_main_v3 (F := Ideal) (m ((c.tc : Thread nD τ).loc main_arg1)) := by
  dsimp only [W3, hostOps1]; after_results; exact W2_v3 m ρ c
theorem W3_arg4 : W3 m ρ c (Proc.devRef .tc main_arg4) = (m ((c.tc : Thread nD τ).loc main_arg4)) := by
  dsimp only [W3, hostOps1]; after_results; exact W2_arg4 m ρ c
theorem W3_arg5 : W3 m ρ c (Proc.devRef .tc main_arg5) = (m ((c.tc : Thread nD τ).loc main_arg5)) := by
  dsimp only [W3, hostOps1]; after_results; exact W2_arg5 m ρ c
theorem W3_arg6 : W3 m ρ c (Proc.devRef .tc main_arg6) = (m ((c.tc : Thread nD τ).loc main_arg6)) := by
  dsimp only [W3, hostOps1]; after_results; exact W2_arg6 m ρ c
theorem W3_arg7 : W3 m ρ c (Proc.devRef .tc main_arg7) = (m ((c.tc : Thread nD τ).loc main_arg7)) := by
  dsimp only [W3, hostOps1]; after_results; exact W2_arg7 m ρ c

/-! ## After region 1 -/

theorem W4_v1 : W4 m ρ c (Proc.devRef .tc main_v1) = val_main_v1 (F := Ideal) (m ((c.tc : Thread nD τ).loc main_arg1)) :=
  (W4_of_ne m ρ c main_v1 (by decide)).trans (W3_v1 m ρ c)
theorem W4_v3 : W4 m ρ c (Proc.devRef .tc main_v3) = val_main_v3 (F := Ideal) (m ((c.tc : Thread nD τ).loc main_arg1)) :=
  (W4_of_ne m ρ c main_v3 (by decide)).trans (W3_v3 m ρ c)
theorem W4_arg5 : W4 m ρ c (Proc.devRef .tc main_arg5) = (m ((c.tc : Thread nD τ).loc main_arg5)) :=
  (W4_of_ne m ρ c main_arg5 (by decide)).trans (W3_arg5 m ρ c)
theorem W4_arg6 : W4 m ρ c (Proc.devRef .tc main_arg6) = (m ((c.tc : Thread nD τ).loc main_arg6)) :=
  (W4_of_ne m ρ c main_arg6 (by decide)).trans (W3_arg6 m ρ c)
theorem W4_arg7 : W4 m ρ c (Proc.devRef .tc main_arg7) = (m ((c.tc : Thread nD τ).loc main_arg7)) :=
  (W4_of_ne m ρ c main_arg7 (by decide)).trans (W3_arg7 m ρ c)

/-! ## After the second aggregation (region 2's entry) -/

set_option maxHeartbeats 1600000 in
/-- The aggregated messages are the reference's stage, once the region output they are gathered from is. -/
theorem W5_v26 (h : W4 m ρ c (Proc.devRef .tc main_v16) = val_main_v19 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :
    W5 m ρ c (Proc.devRef .tc main_v26) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  dsimp only [W5, hostOps2]; after_results
  rw [h, W4_v1 m ρ c, W4_v3 m ρ c]; rfl
/-- The reshaped bias: entry (0, k) is the bias's entry k. -/
theorem W5_v27 (k : Fin 128) : W5 m ρ c (Proc.devRef .tc main_v27) (ix2 (0 : Fin 1) k) = (m ((c.tc : Thread nD τ).loc main_arg5)) (ix1 k) := by
  dsimp only [W5, hostOps2]; after_results
  rw [W4_arg5 m ρ c]
  show shapeCast S1x128 (m ((c.tc : Thread nD τ).loc main_arg5)) shapeCasts_S128_S1x128 (ix2 (0 : Fin 1) k) = _
  exact shapeCast_apply _ _ _ (ix1 k) (by
    rw [Shape.rowMajor_val_one, Shape.rowMajor_val_two]; show k.val = 0 * 128 + k.val; omega)
theorem W5_v1 : W5 m ρ c (Proc.devRef .tc main_v1) = val_main_v1 (F := Ideal) (m ((c.tc : Thread nD τ).loc main_arg1)) := by
  dsimp only [W5, hostOps2]; after_results; exact W4_v1 m ρ c
theorem W5_v3 : W5 m ρ c (Proc.devRef .tc main_v3) = val_main_v3 (F := Ideal) (m ((c.tc : Thread nD τ).loc main_arg1)) := by
  dsimp only [W5, hostOps2]; after_results; exact W4_v3 m ρ c
theorem W5_arg6 : W5 m ρ c (Proc.devRef .tc main_arg6) = (m ((c.tc : Thread nD τ).loc main_arg6)) := by
  dsimp only [W5, hostOps2]; after_results; exact W4_arg6 m ρ c
theorem W5_arg7 : W5 m ρ c (Proc.devRef .tc main_arg7) = (m ((c.tc : Thread nD τ).loc main_arg7)) := by
  dsimp only [W5, hostOps2]; after_results; exact W4_arg7 m ρ c

/-! ## After region 2 -/

theorem W6_v1 : W6 m ρ c (Proc.devRef .tc main_v1) = val_main_v1 (F := Ideal) (m ((c.tc : Thread nD τ).loc main_arg1)) :=
  (W6_of_ne m ρ c main_v1 (by decide)).trans (W5_v1 m ρ c)
theorem W6_v3 : W6 m ρ c (Proc.devRef .tc main_v3) = val_main_v3 (F := Ideal) (m ((c.tc : Thread nD τ).loc main_arg1)) :=
  (W6_of_ne m ρ c main_v3 (by decide)).trans (W5_v3 m ρ c)
theorem W6_arg7 : W6 m ρ c (Proc.devRef .tc main_arg7) = (m ((c.tc : Thread nD τ).loc main_arg7)) :=
  (W6_of_ne m ρ c main_arg7 (by decide)).trans (W5_arg7 m ρ c)

/-! ## After the third aggregation (region 3's entry) -/

set_option maxHeartbeats 1600000 in
/-- The aggregated messages are the reference's stage, once the region output they are gathered from is. -/
theorem W7_v38 (h : W6 m ρ c (Proc.devRef .tc main_v28) = val_main_v34 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) :
    W7 m ρ c (Proc.devRef .tc main_v38) = val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  dsimp only [W7, hostOps3]; after_results
  rw [h, W6_v1 m ρ c, W6_v3 m ρ c]; rfl
/-- The reshaped bias: entry (0, k) is the bias's entry k. -/
theorem W7_v39 (k : Fin 64) : W7 m ρ c (Proc.devRef .tc main_v39) (ix2 (0 : Fin 1) k) = (m ((c.tc : Thread nD τ).loc main_arg7)) (ix1 k) := by
  dsimp only [W7, hostOps3]; after_results
  rw [W6_arg7 m ρ c]
  show shapeCast S1x64 (m ((c.tc : Thread nD τ).loc main_arg7)) shapeCasts_S64_S1x64 (ix2 (0 : Fin 1) k) = _
  exact shapeCast_apply _ _ _ (ix1 k) (by
    rw [Shape.rowMajor_val_one, Shape.rowMajor_val_two]; show k.val = 0 * 64 + k.val; omega)
theorem W7_v1 : W7 m ρ c (Proc.devRef .tc main_v1) = val_main_v1 (F := Ideal) (m ((c.tc : Thread nD τ).loc main_arg1)) := by
  dsimp only [W7, hostOps3]; after_results; exact W6_v1 m ρ c
theorem W7_v3 : W7 m ρ c (Proc.devRef .tc main_v3) = val_main_v3 (F := Ideal) (m ((c.tc : Thread nD τ).loc main_arg1)) := by
  dsimp only [W7, hostOps3]; after_results; exact W6_v3 m ρ c

end Cert.KernelIdeal.Chain

end
-- ==== Proof.RefStages.lean ====
/-
  The reference's dense stages at an index.

  Each layer of the reference is a `dot_general` of the previous layer's activation with a weight, and the
  activation is `max (agg + b) 0` of the aggregated messages `agg` and the bias `b` broadcast along the rows.
  At the extended reals the `dot_general` of a [100000,128] array with a [128,n] array is, at row `r` and
  column `j`, the sum over `k < 128` of the products of the entries `(r,k)` and `(k,j)`; the bias read at `(r,k)`
  is its entry `k`.  The aggregated messages (a gather followed by a scatter-add) are never opened: they
  stay the stage functions `val_main_v14`, `val_main_v29`, `val_main_v44`.
-/
import proofs.«165635_j52836687675913_1_alg».proof.Proof.Gen.ReferenceIdeal.Read

noncomputable section

namespace Cert.ReferenceIdeal.Stages

open Cert.ReferenceIdeal Cert.ReferenceIdeal.Read Idealize.ShloMosaic Idealize.ShloMosaic.ValueIdx

abbrev A128 : Type := (⟨S100000x128, .f32⟩ : BufTy).Contents (Elt Ideal)
abbrev A64 : Type := (⟨S100000x64, .f32⟩ : BufTy).Contents (Elt Ideal)
abbrev E : Type := (⟨S2x640000, .i32⟩ : BufTy).Contents (Elt Ideal)
abbrev W128 : Type := (⟨S128x128, .f32⟩ : BufTy).Contents (Elt Ideal)
abbrev W64 : Type := (⟨S128x64, .f32⟩ : BufTy).Contents (Elt Ideal)
abbrev B128 : Type := (⟨S128, .f32⟩ : BufTy).Contents (Elt Ideal)
abbrev B64 : Type := (⟨S64, .f32⟩ : BufTy).Contents (Elt Ideal)

/-- Layer 1's linear transform: entry `(r,j)` of `x · w` is `∑ k, x (r,k) * w (k,j)`. -/
theorem v4_at (x0 : A128) (x2 : W128) (r : Fin 100000) (j : Fin 128) :
    val_main_v4 (F := Ideal) x0 x2 (ix2 r j) = ∑ k : Fin 128, x0 (ix2 r k) * x2 (ix2 k j) := by
  rw [val_main_v4_apply]
  refine Finset.sum_congr rfl fun k _ => ?_
  have el : lidx_main_v4 (ix2 r j) k = ix2 r k := funext fun a => match a with | ⟨0, _⟩ => rfl | ⟨1, _⟩ => rfl
  have er : ridx_main_v4 (ix2 r j) k = ix2 k j := funext fun a => match a with | ⟨0, _⟩ => rfl | ⟨1, _⟩ => rfl
  rw [el, er]

/-- Layer 2's linear transform of the activation `max (agg₁ + b₁) 0`. -/
theorem v19_at (x0 : A128) (x1 : E) (x2 : W128) (x3 : B128) (x4 : W128) (r : Fin 100000) (j : Fin 128) :
    val_main_v19 (F := Ideal) x0 x1 x2 x3 x4 (ix2 r j)
      = ∑ k : Fin 128, max (val_main_v14 (F := Ideal) x0 x1 x2 (ix2 r k) + x3 (ix1 k)) (Ideal.ofBits .f32 0x00000000#32)
          * x4 (ix2 k j) := by
  rw [val_main_v19_apply]
  refine Finset.sum_congr rfl fun k _ => ?_
  have el : lidx_main_v19 (ix2 r j) k = ix2 r k := funext fun a => match a with | ⟨0, _⟩ => rfl | ⟨1, _⟩ => rfl
  have er : ridx_main_v19 (ix2 r j) k = ix2 k j := funext fun a => match a with | ⟨0, _⟩ => rfl | ⟨1, _⟩ => rfl
  have eb : idx_main_v15 (idx_main_v16 (ix2 r k)) = ix1 k := funext fun a => match a with | ⟨0, _⟩ => rfl
  rw [el, er, val_main_v18_apply, val_main_v17_apply, val_main_v16_apply, val_main_v15_apply, val_main_call0_v0_apply,
    val_main_call0_cst_apply, eb]
  rfl

/-- Layer 3's linear transform of the activation `max (agg₂ + b₂) 0`. -/
theorem v34_at (x0 : A128) (x1 : E) (x2 : W128) (x3 : B128) (x4 : W128) (x5 : B128) (x6 : W64) (r : Fin 100000) (j : Fin 64) :
    val_main_v34 (F := Ideal) x0 x1 x2 x3 x4 x5 x6 (ix2 r j)
      = ∑ k : Fin 128, max (val_main_v29 (F := Ideal) x0 x1 x2 x3 x4 (ix2 r k) + x5 (ix1 k)) (Ideal.ofBits .f32 0x00000000#32)
          * x6 (ix2 k j) := by
  rw [val_main_v34_apply]
  refine Finset.sum_congr rfl fun k _ => ?_
  have el : lidx_main_v34 (ix2 r j) k = ix2 r k := funext fun a => match a with | ⟨0, _⟩ => rfl | ⟨1, _⟩ => rfl
  have er : ridx_main_v34 (ix2 r j) k = ix2 k j := funext fun a => match a with | ⟨0, _⟩ => rfl | ⟨1, _⟩ => rfl
  have eb : idx_main_v30 (idx_main_v31 (ix2 r k)) = ix1 k := funext fun a => match a with | ⟨0, _⟩ => rfl
  rw [el, er, val_main_v33_apply, val_main_v32_apply, val_main_v31_apply, val_main_v30_apply, val_main_call1_v0_apply,
    val_main_call1_cst_apply, eb]
  rfl

/-- The last bias: entry `(r,j)` of the result is the aggregated entry plus `b₃ j`. -/
theorem v47_at (x0 : A128) (x1 : E) (x2 : W128) (x3 : B128) (x4 : W128) (x5 : B128) (x6 : W64) (x7 : B64) (r : Fin 100000) (j : Fin 64) :
    val_main_v47 (F := Ideal) x0 x1 x2 x3 x4 x5 x6 x7 (ix2 r j)
      = val_main_v44 (F := Ideal) x0 x1 x2 x3 x4 x5 x6 (ix2 r j) + x7 (ix1 j) := by
  have eb : idx_main_v45 (idx_main_v46 (ix2 r j)) = ix1 j := funext fun a => match a with | ⟨0, _⟩ => rfl
  rw [val_main_v47_apply, val_main_v46_apply, val_main_v45_apply, eb]
  rfl

end Cert.ReferenceIdeal.Stages

end
-- ==== Proof.Region0.lean ====
import proofs.«165635_j52836687675913_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.Pipeline Idealize.ShloMosaic.ValueIdx
open Cert.KernelIdeal Cert.KernelIdeal.Gen

namespace Cert.KernelIdeal.Region0

variable (V : (c : Dev nD) → (b : Ref sig .tc) → Buf (Elt Ideal) ((c : Thread nD τ).loc b))

/-- The all-zero offsets of a whole-block access, as the constant function. -/
theorem zero_offsets : (![0, 0] : Fin 2 → Nat) = fun _ => 0 := funext fun a => by fin_cases a <;> rfl

/-- The matrix product of `A` (100000 × 128) and `W` (128 × 128): entry `(r, j)` is `∑ k, A (r, k) * W (k, j)`. -/
def matProd (A : S100000x128.Idx → EReal) (W : S128x128.Idx → EReal) : S100000x128.Idx → EReal := fun i =>
  ∑ k : Fin 128, A (ix2 (i 0 : Fin 100000) k) * W (ix2 k (i 1 : Fin 128))

theorem matProd_apply (A : S100000x128.Idx → EReal) (W : S128x128.Idx → EReal) (i : S100000x128.Idx) :
    matProd A W i = ∑ k : Fin 128, A (ix2 (i 0 : Fin 100000) k) * W (ix2 k (i 1 : Fin 128)) := rfl

/-! ## The contraction's operand indices, coordinate by coordinate -/

theorem lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem lhs_col (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_row (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The body's stored value at an index of the block: row `y 0` of the activations' block against column `y 1` of
    the weights, summed over the 128 contracted positions (the narrowing to bf16 is the identity on extended reals and
    the accumulator is the zero splat). -/
theorem payload_apply (x : Vec Ideal S10000x128 .f32) (w : Vec Ideal S128x128 .f32) (y : S10000x128.Idx) :
    Gen.k0_pay1 x w y = ∑ k : Fin 128, x (ix2 (y 0 : Fin 10000) k) * w (ix2 k (y 1 : Fin 128)) := by
  unfold Gen.k0_pay1
  refine (Ideal.matmul_constant_zero_apply dot_S10000x128_S128x128_S10000x128_1_0_0_1_n_n none _ _ y).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx y ((contrEquiv1 dot_S10000x128_S128x128_S10000x128_1_0_0_1_n_n 128 rfl rfl).symm k) = ix2 (y 0 : Fin 10000) k :=
    funext fun a => Fin.ext (by
      match a with
      | ⟨0, _⟩ => exact lhs_row _ _
      | ⟨1, _⟩ => exact (lhs_col _ _).trans hk)
  have er : dot_S10000x128_S128x128_S10000x128_1_0_0_1_n_n.rhsIdx y ((contrEquiv1 dot_S10000x128_S128x128_S10000x128_1_0_0_1_n_n 128 rfl rfl).symm k) = ix2 k (y 1 : Fin 128) :=
    funext fun a => Fin.ext (by
      match a with
      | ⟨0, _⟩ => exact (rhs_row _ _).trans hk
      | ⟨1, _⟩ => exact rhs_col _ _)
  rw [el, er]
  rfl

/-- The three windows' block indices at every grid point: the activations' and the result's blocks are both block
    `t` of the rows and the only block of the columns; the weights' block is the whole matrix. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is block `t` of `matProd` of the two arrays as the region finds them. -/
theorem flushed_eq (c : Dev nD) (t : Fin cfg0.N) :
    (Gen.dat0 (F := Ideal) V c).flushed 2 t
      = ((cfg0.win 2).blk t).view.read (Elt Ideal) (matProd (V c main_arg0) (V c main_arg2)) := by
  show (cfg0.win 2).cut (grid0.coords t) ((Gen.dat0 (F := Ideal) V c).after 2 t) = _
  rw [after0_2]
  unfold out0_2
  rw [View.canon_unit_zero zero_offsets]
  simp only [View.ld_unit_zero (S := S10000x128) zero_offsets, View.ld_unit_zero (S := S128x128) zero_offsets]
  obtain ⟨e00, e01, e10, e11, e20, e21⟩ := index_facts t
  funext y
  refine (payload_apply _ _ y).trans ?_
  show _ = matProd (V c main_arg0) (V c main_arg2) (((cfg0.win 2).blk t).view.emb y)
  rw [matProd_apply]
  refine Finset.sum_congr rfl fun k _ => ?_
  refine congrArg₂ (· * ·) ?_ ?_
  · show (V c main_arg0 : S100000x128.Idx → EReal) (((cfg0.win 0).blk t).view.emb (ix2 (y 0 : Fin 10000) k))
      = (V c main_arg0 : S100000x128.Idx → EReal) (ix2 ((((cfg0.win 2).blk t).view.emb y) 0 : Fin 100000) k)
    refine congrArg (V c main_arg0 : S100000x128.Idx → EReal) (funext fun a => Fin.ext ?_)
    match a with
    | ⟨0, _⟩ =>
      show win0_0.index t (0 : Fin 2) * 10000 + 1 * (y 0).val = win0_2.index t (0 : Fin 2) * 10000 + 1 * (y 0).val
      omega
    | ⟨1, _⟩ =>
      show win0_0.index t (1 : Fin 2) * 128 + 1 * k.val = k.val
      omega
  · show (V c main_arg2 : S128x128.Idx → EReal) (((cfg0.win 1).blk t).view.emb (ix2 k (y 1 : Fin 128)))
      = (V c main_arg2 : S128x128.Idx → EReal) (ix2 k ((((cfg0.win 2).blk t).view.emb y) 1 : Fin 128))
    refine congrArg (V c main_arg2 : S128x128.Idx → EReal) (funext fun a => Fin.ext ?_)
    match a with
    | ⟨0, _⟩ =>
      show win0_1.index t (0 : Fin 2) * 128 + 1 * k.val = k.val
      omega
    | ⟨1, _⟩ =>
      show win0_1.index t (1 : Fin 2) * 128 + 1 * (y 1).val = win0_2.index t (1 : Fin 2) * 128 + 1 * (y 1).val
      omega

/-- An index of the result array lies in grid point `t`'s block iff each coordinate lies in the block's range. -/
theorem mem_blk (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v4).slice (win0_2.rect t)).set ↔ _
  rw [View.set_slice_whole, Rect.mem_set_unit]
  exact Iff.rfl

/-- Every row `r` of the result lies in the block of grid point `r / 10000`, which writes back. -/
theorem cover (i : S100000x128.Idx) :
    ∃ t : Fin cfg0.N, (cfg0.win 2).flush t = true ∧ i ∈ ((cfg0.win 2).blk t).view.set := by
  have hN : cfg0.N = 10 := Gen.N_0
  have h0 : (i 0).val < 100000 := (i 0).isLt
  have h1 : (i 1).val < 128 := (i 1).isLt
  obtain ⟨t, ht⟩ : ∃ t : Fin cfg0.N, t.val = (i 0).val / 10000 := ⟨⟨(i 0).val / 10000, by omega⟩, rfl⟩
  obtain ⟨-, -, -, -, e20, e21⟩ := index_facts t
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    rw [e20, ht]; omega
  | ⟨1, _⟩ =>
    show win0_2.index t (1 : Fin 2) * 128 ≤ (i 1).val ∧ (i 1).val < win0_2.index t (1 : Fin 2) * 128 + 128
    rw [e21]; omega

/-- After the region the result array is the matrix product of the activations and the weights. -/
theorem final_array (c : Dev nD) :
    (Gen.dat0 (F := Ideal) V c).arrAt 2 cfg0.N = matProd (V c main_arg0) (V c main_arg2) :=
  (Gen.dat0 (F := Ideal) V c).arrAt_eq_of_cover 2 (matProd (V c main_arg0) (V c main_arg2))
    (fun t _ => flushed_eq V c t) cover

/-- The result at row `r`, column `j`: row `r` of the activations against column `j` of the weights. -/
theorem final (c : Dev nD) (r : Fin 100000) (j : Fin 128) :
    (Gen.dat0 (F := Ideal) V c).arrAt 2 cfg0.N (ix2 r j)
      = ∑ k : Fin 128, @HMul.hMul EReal EReal EReal instHMul (V c main_arg0 (ix2 r k)) (V c main_arg2 (ix2 k j)) :=
  congrFun (final_array V c) (ix2 r j)

end Cert.KernelIdeal.Region0

end
-- ==== Proof.Region1.lean ====
import proofs.«165635_j52836687675913_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
noncomputable section
open Idealize.ShloMosaic Idealize.ShloMosaic.TcCoe Idealize.SL.Sem Idealize.ShloMosaic.Pipeline Idealize.ShloMosaic.ValueIdx
open Cert.KernelIdeal Cert.KernelIdeal.Gen

/-! # Region 1: bias, rectifier, matrix product

The second layer's kernel adds the one-row bias to every row of its input, takes the maximum with the zero word,
and multiplies the result by the 128 × 128 weight. Here its output array, after the ten points have each written
back their block of 10000 rows, is read at an index: row `r`, column `j` holds
`∑ k, max (x r k + b 0 k) 0 * w k j`. -/

namespace Cert.KernelIdeal.Region1

/-! ## The product's operand indices -/

/-- The left operand's row is the output's row. -/
theorem lhs_row (i : S10000x128.Idx) (q : (dot_S10000x128_S128x128_S10000x128_1_0_0_1_n_n).contr.Idx) :
    ((dot_S10000x128_S128x128_S10000x128_1_0_0_1_n_n).lhsIdx i q 0).val = (i 0).val := by
  unfold DotDims.lhsIdx
  rw [dif_neg (show ¬(0 : Fin S10000x128.rank) ∈ (dot_S10000x128_S128x128_S10000x128_1_0_0_1_n_n).lhsBatch by decide), dif_pos (show (0 : Fin S10000x128.rank) ∈ (dot_S10000x128_S128x128_S10000x128_1_0_0_1_n_n).lhsNonContracting by decide)]
  rfl
/-- The left operand's column is the summation index. -/
theorem lhs_col (i : S10000x128.Idx) (q : (dot_S10000x128_S128x128_S10000x128_1_0_0_1_n_n).contr.Idx) :
    ((dot_S10000x128_S128x128_S10000x128_1_0_0_1_n_n).lhsIdx i q 1).val = (q ⟨0, by decide⟩).val :=
  (dot_S10000x128_S128x128_S10000x128_1_0_0_1_n_n).lhsIdx_val_of_single rfl i q
/-- The right operand's row is the summation index. -/
theorem rhs_row (i : S10000x128.Idx) (q : (dot_S10000x128_S128x128_S10000x128_1_0_0_1_n_n).contr.Idx) :
    ((dot_S10000x128_S128x128_S10000x128_1_0_0_1_n_n).rhsIdx i q 0).val = (q ⟨0, by decide⟩).val :=
  (dot_S10000x128_S128x128_S10000x128_1_0_0_1_n_n).rhsIdx_val_of_single rfl i q
/-- The right operand's column is the output's column. -/
theorem rhs_col (i : S10000x128.Idx) (q : (dot_S10000x128_S128x128_S10000x128_1_0_0_1_n_n).contr.Idx) :
    ((dot_S10000x128_S128x128_S10000x128_1_0_0_1_n_n).rhsIdx i q 1).val = (i 1).val := by
  unfold DotDims.rhsIdx
  rw [dif_neg (show ¬(1 : Fin S128x128.rank) ∈ (dot_S10000x128_S128x128_S10000x128_1_0_0_1_n_n).rhsBatch by decide), dif_pos (show (1 : Fin S128x128.rank) ∈ (dot_S10000x128_S128x128_S10000x128_1_0_0_1_n_n).rhsNonContracting by decide)]
  rfl

/-- The product into the zero accumulator, at row `p` and column `q`: the sum over the 128 shared coordinates. -/
theorem product_apply (l : FVec Ideal S10000x128 .bf16) (r : FVec Ideal S128x128 .bf16) (p : Fin 10000) (q : Fin 128) :
    matmul (F := Ideal) dot_S10000x128_S128x128_S10000x128_1_0_0_1_n_n none l r (constant (F := Ideal) S10000x128 .f32 0x00000000#32) (ix2 p q)
      = ∑ k : Fin 128, l (ix2 p k) * r (ix2 k q) := by
  refine (Ideal.matmul_constant_zero_apply _ none l r (ix2 p q)).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : (dot_S10000x128_S128x128_S10000x128_1_0_0_1_n_n).lhsIdx (ix2 p q) ((ValueIdx.contrEquiv1 dot_S10000x128_S128x128_S10000x128_1_0_0_1_n_n 128 rfl rfl).symm k) = ix2 p k := funext fun a => Fin.ext (by
    match a with
    | ⟨0, _⟩ => exact lhs_row _ _
    | ⟨1, _⟩ => exact (lhs_col _ _).trans hk)
  have er : (dot_S10000x128_S128x128_S10000x128_1_0_0_1_n_n).rhsIdx (ix2 p q) ((ValueIdx.contrEquiv1 dot_S10000x128_S128x128_S10000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The body's result at an index -/

/-- The body's result on a block of 10000 rows `x`, the bias row `b` and the weight `w`, at row `p` and column `q`. -/
theorem body_apply (x : Vec Ideal S10000x128 .f32) (b : Vec Ideal S1x128 .f32) (w : Vec Ideal S128x128 .f32) (p : Fin 10000) (q : Fin 128) :
    k1_pay1 (F := Ideal) x b w (ix2 p q)
      = ∑ k : Fin 128, max (x (ix2 p k) + b (ix2 (0 : Fin 1) k)) (Ideal.ofBits .f32 0x00000000#32) * w (ix2 k q) := by
  unfold k1_pay1
  refine (product_apply _ _ p q).trans ?_
  refine Finset.sum_congr rfl fun k _ => ?_
  show max (shapeCast S10000x128 x shapeCasts_S10000x128_S10000x128 (ix2 p k) + broadcastTo S10000x128 (shapeCast S1x128 b shapeCasts_S1x128_S1x128) broadcasts_S1x128_S10000x128 (ix2 p k)) (Scalar.ofBits (F := Ideal) .f32 0x00000000#32) * w (ix2 k q) = _
  rw [shapeCast_self, shapeCast_self, broadcastTo_1b_ab_apply]
  rfl

/-- The same at an index of the block, split into its two coordinates. -/
theorem body_at (x : Vec Ideal S10000x128 .f32) (b : Vec Ideal S1x128 .f32) (w : Vec Ideal S128x128 .f32) (j : S10000x128.Idx) :
    k1_pay1 (F := Ideal) x b w j
      = ∑ k : Fin 128, max (x (ix2 (j 0 : Fin 10000) k) + b (ix2 (0 : Fin 1) k)) (Ideal.ofBits .f32 0x00000000#32) * w (ix2 k (j 1 : Fin 128)) := by
  obtain ⟨p, q, rfl⟩ : ∃ (p : Fin 10000) (q : Fin 128), j = ix2 p q := ⟨j 0, j 1, eq_ix2 j⟩
  exact body_apply x b w p q

/-! ## The layer as one function of the whole arrays -/

/-- The layer's output from the whole input `a`, the bias row `b` and the weight `w`: at row `i 0`, column `i 1`. -/
def layer1 (a : S100000x128.Idx → EReal) (b : S1x128.Idx → EReal) (w : S128x128.Idx → EReal) : S100000x128.Idx → EReal :=
  fun i => ∑ k : Fin 128, max (a (ix2 (i 0 : Fin 100000) k) + b (ix2 (0 : Fin 1) k)) (Ideal.ofBits .f32 0x00000000#32) * w (ix2 k (i 1 : Fin 128))

/-! ## The arrays as the region finds them -/

/-- The layer's input as the region finds it: 100000 rows of 128. -/
abbrev input1 (V : (c : Dev nD) → (b : Ref sig .tc) → Buf (Elt Ideal) ((c : Thread nD τ).loc b)) (c : Dev nD) : S100000x128.Idx → EReal := V c main_v14
/-- The bias row as the region finds it. -/
abbrev bias1 (V : (c : Dev nD) → (b : Ref sig .tc) → Buf (Elt Ideal) ((c : Thread nD τ).loc b)) (c : Dev nD) : S1x128.Idx → EReal := V c main_v15
/-- The weight as the region finds it: 128 by 128. -/
abbrev weight1 (V : (c : Dev nD) → (b : Ref sig .tc) → Buf (Elt Ideal) ((c : Thread nD τ).loc b)) (c : Dev nD) : S128x128.Idx → EReal := V c main_arg4

/-! ## From the blocks to the array -/

theorem zero_offsets : (![0, 0] : Fin 2 → Nat) = fun _ => 0 := funext fun a => by fin_cases a <;> rfl

/-- The block indices, decided over the ten points: the input's blocks move with the output's along the rows and
    sit at column block 0; the bias and the weight are one block each, at 0, 0. -/
theorem block_indices : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) ≤ 9
    ∧ win1_3.index t (1 : Fin 2) = 0 :=
  (by decide +kernel : ∀ t : Fin grid1.N, _)

/-- Every one of the ten row blocks is some point's. -/
theorem block_onto : ∀ (q0 : Fin 10), ∃ t : Fin cfg1.N, win1_3.index t = ![q0.val, 0] :=
  (by decide +kernel : ∀ (q0 : Fin 10), ∃ t : Fin grid1.N, win1_3.index t = ![q0.val, 0])

/-- What point `t` writes back is block `t` of the layer's output on the arrays as the region finds them. -/
theorem flushed_eq (V : (c : Dev nD) → (b : Ref sig .tc) → Buf (Elt Ideal) ((c : Thread nD τ).loc b)) (c : Dev nD) (t : Fin cfg1.N) :
    (dat1 (F := Ideal) V c).flushed 3 t = ((cfg1.win 3).blk t).view.read (Elt Ideal) (layer1 (input1 V c) (bias1 V c) (weight1 V c)) := by
  show (cfg1.win 3).cut (grid1.coords t) ((dat1 (F := Ideal) V c).after 3 t) = _
  rw [after1_3]
  unfold out1_3
  rw [View.canon_unit_zero zero_offsets]
  simp only [View.ld_unit_zero (S := S10000x128) zero_offsets, View.ld_unit_zero (S := S1x128) zero_offsets, View.ld_unit_zero (S := S128x128) zero_offsets]
  obtain ⟨e0, e1, e2, e3, e4, e5, e6, e7⟩ := block_indices t
  funext j
  refine (body_at (iblk1 V c 0 t) (iblk1 V c 1 t) (iblk1 V c 2 t) j).trans ?_
  show (∑ k : Fin 128, max (input1 V c (((cfg1.win 0).blk t).view.emb (ix2 (j 0 : Fin 10000) k)) + bias1 V c (((cfg1.win 1).blk t).view.emb (ix2 (0 : Fin 1) k))) (Ideal.ofBits .f32 0x00000000#32) * weight1 V c (((cfg1.win 2).blk t).view.emb (ix2 k (j 1 : Fin 128))))
      = ∑ k : Fin 128, max (input1 V c (ix2 ((((cfg1.win 3).blk t).view.emb j) 0 : Fin 100000) k) + bias1 V c (ix2 (0 : Fin 1) k)) (Ideal.ofBits .f32 0x00000000#32) * weight1 V c (ix2 k ((((cfg1.win 3).blk t).view.emb j) 1 : Fin 128))
  refine Finset.sum_congr rfl fun k _ => ?_
  have hx : ((cfg1.win 0).blk t).view.emb (ix2 (j 0 : Fin 10000) k) = ix2 ((((cfg1.win 3).blk t).view.emb j) 0 : Fin 100000) k := by
    funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 128 + 1 * k.val = k.val; omega
  have hb : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have hw : ((cfg1.win 2).blk t).view.emb (ix2 k (j 1 : Fin 128)) = ix2 k ((((cfg1.win 3).blk t).view.emb j) 1 : Fin 128) := by
    funext a; apply Fin.ext
    match a with
    | ⟨0, _⟩ => show win1_2.index t (0 : Fin 2) * 128 + 1 * k.val = k.val; omega
    | ⟨1, _⟩ => show win1_2.index t (1 : Fin 2) * 128 + 1 * (j 1).val = win1_3.index t (1 : Fin 2) * 128 + 1 * (j 1).val; omega
  rw [hx, hb, hw]
  rfl

/-- An index of the array is in point `t`'s block iff each coordinate is in the block's range on its axis. -/
theorem mem_block (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v16).slice (win1_3.rect t)).set ↔ _
  rw [View.set_slice_whole, Rect.mem_set_unit]
  exact Iff.rfl

/-- Every index of the array is written back by the point whose number is its row divided by 10000. -/
theorem covered (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := block_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- The output array after the region is the layer's output on the arrays as the region finds them. -/
theorem array_eq (V : (c : Dev nD) → (b : Ref sig .tc) → Buf (Elt Ideal) ((c : Thread nD τ).loc b)) (c : Dev nD) :
    (dat1 (F := Ideal) V c).arrAt 3 cfg1.N = layer1 (input1 V c) (bias1 V c) (weight1 V c) :=
  (dat1 (F := Ideal) V c).arrAt_eq_of_cover 3 (layer1 (input1 V c) (bias1 V c) (weight1 V c)) (fun t _ => flushed_eq V c t) covered

/-- The output array after the region, at row `r` and column `j`. -/
theorem final (V : (c : Dev nD) → (b : Ref sig .tc) → Buf (Elt Ideal) ((c : Thread nD τ).loc b)) (c : Dev nD) (r : Fin 100000) (j : Fin 128) :
    (Gen.dat1 (F := Ideal) V c).arrAt 3 cfg1.N (ix2 r j)
      = ∑ k : Fin 128, max (input1 V c (ix2 r k) + bias1 V c (ix2 (0 : Fin 1) k)) (Ideal.ofBits .f32 0x00000000#32) * weight1 V c (ix2 k j) := by
  rw [array_eq]
  rfl

/-- The same with the three arrays named by the caller. -/
theorem final_of (V : (c : Dev nD) → (b : Ref sig .tc) → Buf (Elt Ideal) ((c : Thread nD τ).loc b)) (c : Dev nD)
    (a : S100000x128.Idx → EReal) (b : S1x128.Idx → EReal) (w : S128x128.Idx → EReal)
    (ha : input1 V c = a) (hb : bias1 V c = b) (hw : weight1 V c = w) (r : Fin 100000) (j : Fin 128) :
    (Gen.dat1 (F := Ideal) V c).arrAt 3 cfg1.N (ix2 r j)
      = ∑ k : Fin 128, max (a (ix2 r k) + b (ix2 (0 : Fin 1) k)) (Ideal.ofBits .f32 0x00000000#32) * w (ix2 k j) := by
  subst ha hb hw
  exact final V c r j

end Cert.KernelIdeal.Region1
end
-- ==== Proof.Region2.lean ====
import proofs.«165635_j52836687675913_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
noncomputable section
open Idealize.ShloMosaic Idealize.ShloMosaic.TcCoe Idealize.SL.Sem Idealize.ShloMosaic.Pipeline Idealize.ShloMosaic.ValueIdx
open Cert.KernelIdeal Cert.KernelIdeal.Gen

/-! # Region 2: bias, rectifier, matrix product

The third layer's kernel adds the one-row bias to every row of its input, takes the maximum with the zero word,
and multiplies the result by the 128 × 64 weight. Here its output array, after the ten points have each written
back their block of 10000 rows, is read at an index: row `r`, column `j` holds
`∑ k, max (x r k + b 0 k) 0 * w k j`. -/

namespace Cert.KernelIdeal.Region2

/-! ## The product's operand indices -/

/-- The left operand's row is the output's row. -/
theorem lhs_row (i : S10000x64.Idx) (q : (dot_S10000x128_S128x64_S10000x64_1_0_0_1_n_n).contr.Idx) :
    ((dot_S10000x128_S128x64_S10000x64_1_0_0_1_n_n).lhsIdx i q 0).val = (i 0).val := by
  unfold DotDims.lhsIdx
  rw [dif_neg (show ¬(0 : Fin S10000x128.rank) ∈ (dot_S10000x128_S128x64_S10000x64_1_0_0_1_n_n).lhsBatch by decide), dif_pos (show (0 : Fin S10000x128.rank) ∈ (dot_S10000x128_S128x64_S10000x64_1_0_0_1_n_n).lhsNonContracting by decide)]
  rfl
/-- The left operand's column is the summation index. -/
theorem lhs_col (i : S10000x64.Idx) (q : (dot_S10000x128_S128x64_S10000x64_1_0_0_1_n_n).contr.Idx) :
    ((dot_S10000x128_S128x64_S10000x64_1_0_0_1_n_n).lhsIdx i q 1).val = (q ⟨0, by decide⟩).val :=
  (dot_S10000x128_S128x64_S10000x64_1_0_0_1_n_n).lhsIdx_val_of_single rfl i q
/-- The right operand's row is the summation index. -/
theorem rhs_row (i : S10000x64.Idx) (q : (dot_S10000x128_S128x64_S10000x64_1_0_0_1_n_n).contr.Idx) :
    ((dot_S10000x128_S128x64_S10000x64_1_0_0_1_n_n).rhsIdx i q 0).val = (q ⟨0, by decide⟩).val :=
  (dot_S10000x128_S128x64_S10000x64_1_0_0_1_n_n).rhsIdx_val_of_single rfl i q
/-- The right operand's column is the output's column. -/
theorem rhs_col (i : S10000x64.Idx) (q : (dot_S10000x128_S128x64_S10000x64_1_0_0_1_n_n).contr.Idx) :
    ((dot_S10000x128_S128x64_S10000x64_1_0_0_1_n_n).rhsIdx i q 1).val = (i 1).val := by
  unfold DotDims.rhsIdx
  rw [dif_neg (show ¬(1 : Fin S128x64.rank) ∈ (dot_S10000x128_S128x64_S10000x64_1_0_0_1_n_n).rhsBatch by decide), dif_pos (show (1 : Fin S128x64.rank) ∈ (dot_S10000x128_S128x64_S10000x64_1_0_0_1_n_n).rhsNonContracting by decide)]
  rfl

/-- The product into the zero accumulator, at row `p` and column `q`: the sum over the 128 shared coordinates. -/
theorem product_apply (l : FVec Ideal S10000x128 .bf16) (r : FVec Ideal S128x64 .bf16) (p : Fin 10000) (q : Fin 64) :
    matmul (F := Ideal) dot_S10000x128_S128x64_S10000x64_1_0_0_1_n_n none l r (constant (F := Ideal) S10000x64 .f32 0x00000000#32) (ix2 p q)
      = ∑ k : Fin 128, l (ix2 p k) * r (ix2 k q) := by
  refine (Ideal.matmul_constant_zero_apply _ none l r (ix2 p q)).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : (dot_S10000x128_S128x64_S10000x64_1_0_0_1_n_n).lhsIdx (ix2 p q) ((ValueIdx.contrEquiv1 dot_S10000x128_S128x64_S10000x64_1_0_0_1_n_n 128 rfl rfl).symm k) = ix2 p k := funext fun a => Fin.ext (by
    match a with
    | ⟨0, _⟩ => exact lhs_row _ _
    | ⟨1, _⟩ => exact (lhs_col _ _).trans hk)
  have er : (dot_S10000x128_S128x64_S10000x64_1_0_0_1_n_n).rhsIdx (ix2 p q) ((ValueIdx.contrEquiv1 dot_S10000x128_S128x64_S10000x64_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The body's result at an index -/

/-- The body's result on a block of 10000 rows `x`, the bias row `b` and the weight `w`, at row `p` and column `q`. -/
theorem body_apply (x : Vec Ideal S10000x128 .f32) (b : Vec Ideal S1x128 .f32) (w : Vec Ideal S128x64 .f32) (p : Fin 10000) (q : Fin 64) :
    k2_pay1 (F := Ideal) x b w (ix2 p q)
      = ∑ k : Fin 128, max (x (ix2 p k) + b (ix2 (0 : Fin 1) k)) (Ideal.ofBits .f32 0x00000000#32) * w (ix2 k q) := by
  unfold k2_pay1
  refine (product_apply _ _ p q).trans ?_
  refine Finset.sum_congr rfl fun k _ => ?_
  show max (shapeCast S10000x128 x shapeCasts_S10000x128_S10000x128 (ix2 p k) + broadcastTo S10000x128 (shapeCast S1x128 b shapeCasts_S1x128_S1x128) broadcasts_S1x128_S10000x128 (ix2 p k)) (Scalar.ofBits (F := Ideal) .f32 0x00000000#32) * w (ix2 k q) = _
  rw [shapeCast_self, shapeCast_self, broadcastTo_1b_ab_apply]
  rfl

/-- The same at an index of the block, split into its two coordinates. -/
theorem body_at (x : Vec Ideal S10000x128 .f32) (b : Vec Ideal S1x128 .f32) (w : Vec Ideal S128x64 .f32) (j : S10000x64.Idx) :
    k2_pay1 (F := Ideal) x b w j
      = ∑ k : Fin 128, max (x (ix2 (j 0 : Fin 10000) k) + b (ix2 (0 : Fin 1) k)) (Ideal.ofBits .f32 0x00000000#32) * w (ix2 k (j 1 : Fin 64)) := by
  obtain ⟨p, q, rfl⟩ : ∃ (p : Fin 10000) (q : Fin 64), j = ix2 p q := ⟨j 0, j 1, eq_ix2 j⟩
  exact body_apply x b w p q

/-! ## The layer as one function of the whole arrays -/

/-- The layer's output from the whole input `a`, the bias row `b` and the weight `w`: at row `i 0`, column `i 1`. -/
def layer2 (a : S100000x128.Idx → EReal) (b : S1x128.Idx → EReal) (w : S128x64.Idx → EReal) : S100000x64.Idx → EReal :=
  fun i => ∑ k : Fin 128, max (a (ix2 (i 0 : Fin 100000) k) + b (ix2 (0 : Fin 1) k)) (Ideal.ofBits .f32 0x00000000#32) * w (ix2 k (i 1 : Fin 64))

/-! ## The arrays as the region finds them -/

/-- The layer's input as the region finds it: 100000 rows of 128. -/
abbrev input2 (V : (c : Dev nD) → (b : Ref sig .tc) → Buf (Elt Ideal) ((c : Thread nD τ).loc b)) (c : Dev nD) : S100000x128.Idx → EReal := V c main_v26
/-- The bias row as the region finds it. -/
abbrev bias2 (V : (c : Dev nD) → (b : Ref sig .tc) → Buf (Elt Ideal) ((c : Thread nD τ).loc b)) (c : Dev nD) : S1x128.Idx → EReal := V c main_v27
/-- The weight as the region finds it: 128 by 64. -/
abbrev weight2 (V : (c : Dev nD) → (b : Ref sig .tc) → Buf (Elt Ideal) ((c : Thread nD τ).loc b)) (c : Dev nD) : S128x64.Idx → EReal := V c main_arg6

/-! ## From the blocks to the array -/

theorem zero_offsets : (![0, 0] : Fin 2 → Nat) = fun _ => 0 := funext fun a => by fin_cases a <;> rfl

/-- The block indices, decided over the ten points: the input's blocks move with the output's along the rows and
    sit at column block 0; the bias and the weight are one block each, at 0, 0. -/
theorem block_indices : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) ≤ 9
    ∧ win2_3.index t (1 : Fin 2) = 0 :=
  (by decide +kernel : ∀ t : Fin grid2.N, _)

/-- Every one of the ten row blocks is some point's. -/
theorem block_onto : ∀ (q0 : Fin 10), ∃ t : Fin cfg2.N, win2_3.index t = ![q0.val, 0] :=
  (by decide +kernel : ∀ (q0 : Fin 10), ∃ t : Fin grid2.N, win2_3.index t = ![q0.val, 0])

/-- What point `t` writes back is block `t` of the layer's output on the arrays as the region finds them. -/
theorem flushed_eq (V : (c : Dev nD) → (b : Ref sig .tc) → Buf (Elt Ideal) ((c : Thread nD τ).loc b)) (c : Dev nD) (t : Fin cfg2.N) :
    (dat2 (F := Ideal) V c).flushed 3 t = ((cfg2.win 3).blk t).view.read (Elt Ideal) (layer2 (input2 V c) (bias2 V c) (weight2 V c)) := by
  show (cfg2.win 3).cut (grid2.coords t) ((dat2 (F := Ideal) V c).after 3 t) = _
  rw [after2_3]
  unfold out2_3
  rw [View.canon_unit_zero zero_offsets]
  simp only [View.ld_unit_zero (S := S10000x128) zero_offsets, View.ld_unit_zero (S := S1x128) zero_offsets, View.ld_unit_zero (S := S128x64) zero_offsets]
  obtain ⟨e0, e1, e2, e3, e4, e5, e6, e7⟩ := block_indices t
  funext j
  refine (body_at (iblk2 V c 0 t) (iblk2 V c 1 t) (iblk2 V c 2 t) j).trans ?_
  show (∑ k : Fin 128, max (input2 V c (((cfg2.win 0).blk t).view.emb (ix2 (j 0 : Fin 10000) k)) + bias2 V c (((cfg2.win 1).blk t).view.emb (ix2 (0 : Fin 1) k))) (Ideal.ofBits .f32 0x00000000#32) * weight2 V c (((cfg2.win 2).blk t).view.emb (ix2 k (j 1 : Fin 64))))
      = ∑ k : Fin 128, max (input2 V c (ix2 ((((cfg2.win 3).blk t).view.emb j) 0 : Fin 100000) k) + bias2 V c (ix2 (0 : Fin 1) k)) (Ideal.ofBits .f32 0x00000000#32) * weight2 V c (ix2 k ((((cfg2.win 3).blk t).view.emb j) 1 : Fin 64))
  refine Finset.sum_congr rfl fun k _ => ?_
  have hx : ((cfg2.win 0).blk t).view.emb (ix2 (j 0 : Fin 10000) k) = ix2 ((((cfg2.win 3).blk t).view.emb j) 0 : Fin 100000) k := by
    funext a; apply Fin.ext
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 128 + 1 * k.val = k.val; omega
  have hb : ((cfg2.win 1).blk t).view.emb (ix2 (0 : Fin 1) k) = ix2 (0 : Fin 1) k := by
    funext a; apply Fin.ext
    match a with
    | ⟨0, _⟩ => show win2_1.index t (0 : Fin 2) * 1 + 1 * 0 = 0; omega
    | ⟨1, _⟩ => show win2_1.index t (1 : Fin 2) * 128 + 1 * k.val = k.val; omega
  have hw : ((cfg2.win 2).blk t).view.emb (ix2 k (j 1 : Fin 64)) = ix2 k ((((cfg2.win 3).blk t).view.emb j) 1 : Fin 64) := by
    funext a; apply Fin.ext
    match a with
    | ⟨0, _⟩ => show win2_2.index t (0 : Fin 2) * 128 + 1 * k.val = k.val; omega
    | ⟨1, _⟩ => show win2_2.index t (1 : Fin 2) * 64 + 1 * (j 1).val = win2_3.index t (1 : Fin 2) * 64 + 1 * (j 1).val; omega
  rw [hx, hb, hw]
  rfl

/-- An index of the array is in point `t`'s block iff each coordinate is in the block's range on its axis. -/
theorem mem_block (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v28).slice (win2_3.rect t)).set ↔ _
  rw [View.set_slice_whole, Rect.mem_set_unit]
  exact Iff.rfl

/-- Every index of the array is written back by the point whose number is its row divided by 10000. -/
theorem covered (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := block_onto ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_block]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- The output array after the region is the layer's output on the arrays as the region finds them. -/
theorem array_eq (V : (c : Dev nD) → (b : Ref sig .tc) → Buf (Elt Ideal) ((c : Thread nD τ).loc b)) (c : Dev nD) :
    (dat2 (F := Ideal) V c).arrAt 3 cfg2.N = layer2 (input2 V c) (bias2 V c) (weight2 V c) :=
  (dat2 (F := Ideal) V c).arrAt_eq_of_cover 3 (layer2 (input2 V c) (bias2 V c) (weight2 V c)) (fun t _ => flushed_eq V c t) covered

/-- The output array after the region, at row `r` and column `j`. -/
theorem final (V : (c : Dev nD) → (b : Ref sig .tc) → Buf (Elt Ideal) ((c : Thread nD τ).loc b)) (c : Dev nD) (r : Fin 100000) (j : Fin 64) :
    (Gen.dat2 (F := Ideal) V c).arrAt 3 cfg2.N (ix2 r j)
      = ∑ k : Fin 128, max (input2 V c (ix2 r k) + bias2 V c (ix2 (0 : Fin 1) k)) (Ideal.ofBits .f32 0x00000000#32) * weight2 V c (ix2 k j) := by
  rw [array_eq]
  rfl

/-- The same with the three arrays named by the caller. -/
theorem final_of (V : (c : Dev nD) → (b : Ref sig .tc) → Buf (Elt Ideal) ((c : Thread nD τ).loc b)) (c : Dev nD)
    (a : S100000x128.Idx → EReal) (b : S1x128.Idx → EReal) (w : S128x64.Idx → EReal)
    (ha : input2 V c = a) (hb : bias2 V c = b) (hw : weight2 V c = w) (r : Fin 100000) (j : Fin 64) :
    (Gen.dat2 (F := Ideal) V c).arrAt 3 cfg2.N (ix2 r j)
      = ∑ k : Fin 128, max (a (ix2 r k) + b (ix2 (0 : Fin 1) k)) (Ideal.ofBits .f32 0x00000000#32) * w (ix2 k j) := by
  subst ha hb hw
  exact final V c r j

end Cert.KernelIdeal.Region2
end
-- ==== Proof.Region3.lean ====
import proofs.«165635_j52836687675913_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.Pipeline Idealize.ShloMosaic.ValueIdx
open Cert.KernelIdeal Cert.KernelIdeal.Gen

namespace Cert.KernelIdeal.Region3

variable (V : (c : Dev nD) → (b : Ref sig .tc) → Buf (Elt Ideal) ((c : Thread nD τ).loc b))

/-- The all-zero offsets of a whole-block access, as the constant function. -/
theorem zero_offsets : (![0, 0] : Fin 2 → Nat) = fun _ => 0 := funext fun a => by fin_cases a <;> rfl

/-- Adding a one-row bias `B` to every row of `A`: entry `(r, j)` is `A (r, j) + B (0, j)`. -/
def biasAdd (A : S100000x64.Idx → EReal) (B : S1x64.Idx → EReal) : S100000x64.Idx → EReal := fun i =>
  A i + B (ix2 (0 : Fin 1) (i 1 : Fin 64))

theorem biasAdd_apply (A : S100000x64.Idx → EReal) (B : S1x64.Idx → EReal) (i : S100000x64.Idx) :
    biasAdd A B i = A i + B (ix2 (0 : Fin 1) (i 1 : Fin 64)) := rfl

/-- The body's stored value at an index of the block: the activations' block there plus the bias row at its column. -/
theorem payload_apply (x : Vec Ideal S10000x64 .f32) (b : Vec Ideal S1x64 .f32) (y : S10000x64.Idx) :
    Gen.k3_pay1 x b y = x y + b (ix2 (0 : Fin 1) (y 1 : Fin 64)) := by
  obtain ⟨p, q, rfl⟩ : ∃ (p : Fin 10000) (q : Fin 64), y = ix2 p q := ⟨y 0, y 1, eq_ix2 y⟩
  unfold Gen.k3_pay1
  rw [addf_apply, shapeCast_self, shapeCast_self, broadcastTo_1b_ab_apply]

/-- The three windows' block indices at every grid point: the activations' and the result's blocks are both block
    `t` of the rows and the only block of the columns; the bias's block is its whole array. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point `t` writes back is block `t` of `biasAdd` of the two arrays as the region finds them. -/
theorem flushed_eq (c : Dev nD) (t : Fin cfg3.N) :
    (Gen.dat3 (F := Ideal) V c).flushed 2 t
      = ((cfg3.win 2).blk t).view.read (Elt Ideal) (biasAdd (V c main_v38) (V c main_v39)) := by
  show (cfg3.win 2).cut (grid3.coords t) ((Gen.dat3 (F := Ideal) V c).after 2 t) = _
  rw [after3_2]
  unfold out3_2
  rw [View.canon_unit_zero zero_offsets]
  simp only [View.ld_unit_zero (S := S10000x64) zero_offsets, View.ld_unit_zero (S := S1x64) zero_offsets]
  obtain ⟨e00, e01, e10, e11, e20, e21⟩ := index_facts t
  funext y
  refine (payload_apply _ _ y).trans ?_
  show _ = biasAdd (V c main_v38) (V c main_v39) (((cfg3.win 2).blk t).view.emb y)
  rw [biasAdd_apply]
  refine congrArg₂ (· + ·) ?_ ?_
  · show (V c main_v38 : S100000x64.Idx → EReal) (((cfg3.win 0).blk t).view.emb y)
      = (V c main_v38 : S100000x64.Idx → EReal) (((cfg3.win 2).blk t).view.emb y)
    refine congrArg (V c main_v38 : S100000x64.Idx → EReal) (funext fun a => Fin.ext ?_)
    match a with
    | ⟨0, _⟩ =>
      show win3_0.index t (0 : Fin 2) * 10000 + 1 * (y 0).val = win3_2.index t (0 : Fin 2) * 10000 + 1 * (y 0).val
      rw [e00, e20]
    | ⟨1, _⟩ =>
      show win3_0.index t (1 : Fin 2) * 64 + 1 * (y 1).val = win3_2.index t (1 : Fin 2) * 64 + 1 * (y 1).val
      rw [e01, e21]
  · show (V c main_v39 : S1x64.Idx → EReal) (((cfg3.win 1).blk t).view.emb (ix2 (0 : Fin 1) (y 1 : Fin 64)))
      = (V c main_v39 : S1x64.Idx → EReal) (ix2 (0 : Fin 1) ((((cfg3.win 2).blk t).view.emb y) 1 : Fin 64))
    refine congrArg (V c main_v39 : S1x64.Idx → EReal) (funext fun a => Fin.ext ?_)
    match a with
    | ⟨0, _⟩ =>
      show win3_1.index t (0 : Fin 2) * 1 + 1 * 0 = 0
      rw [e10]
    | ⟨1, _⟩ =>
      show win3_1.index t (1 : Fin 2) * 64 + 1 * (y 1).val = win3_2.index t (1 : Fin 2) * 64 + 1 * (y 1).val
      rw [e11, e21]

/-- An index of the result array lies in grid point `t`'s block iff each coordinate lies in the block's range. -/
theorem mem_blk (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v40).slice (win3_2.rect t)).set ↔ _
  rw [View.set_slice_whole, Rect.mem_set_unit]
  exact Iff.rfl

/-- Every row `r` of the result lies in the block of grid point `r / 10000`, which writes back. -/
theorem cover (i : S100000x64.Idx) :
    ∃ t : Fin cfg3.N, (cfg3.win 2).flush t = true ∧ i ∈ ((cfg3.win 2).blk t).view.set := by
  have hN : cfg3.N = 10 := Gen.N_3
  have h0 : (i 0).val < 100000 := (i 0).isLt
  have h1 : (i 1).val < 64 := (i 1).isLt
  obtain ⟨t, ht⟩ : ∃ t : Fin cfg3.N, t.val = (i 0).val / 10000 := ⟨⟨(i 0).val / 10000, by omega⟩, rfl⟩
  obtain ⟨-, -, -, -, e20, e21⟩ := index_facts t
  refine ⟨t, flush3_2 t, ?_⟩
  rw [mem_blk]
  intro a
  match a with
  | ⟨0, _⟩ =>
    show win3_2.index t (0 : Fin 2) * 10000 ≤ (i 0).val ∧ (i 0).val < win3_2.index t (0 : Fin 2) * 10000 + 10000
    rw [e20, ht]; omega
  | ⟨1, _⟩ =>
    show win3_2.index t (1 : Fin 2) * 64 ≤ (i 1).val ∧ (i 1).val < win3_2.index t (1 : Fin 2) * 64 + 64
    rw [e21]; omega

/-- After the region the result array is `biasAdd` of the activations and the bias row. -/
theorem final_array (c : Dev nD) :
    (Gen.dat3 (F := Ideal) V c).arrAt 2 cfg3.N = biasAdd (V c main_v38) (V c main_v39) :=
  (Gen.dat3 (F := Ideal) V c).arrAt_eq_of_cover 2 (biasAdd (V c main_v38) (V c main_v39))
    (fun t _ => flushed_eq V c t) cover

/-- The result at row `r`, column `j`: the activations there plus the bias at column `j`. -/
theorem final (c : Dev nD) (r : Fin 100000) (j : Fin 64) :
    (Gen.dat3 (F := Ideal) V c).arrAt 2 cfg3.N (ix2 r j)
      = @HAdd.hAdd EReal EReal EReal instHAdd (V c main_v38 (ix2 r j)) (V c main_v39 (ix2 (0 : Fin 1) j)) :=
  congrFun (final_array V c) (ix2 r j)

end Cert.KernelIdeal.Region3

end
-- ==== Proof.KernelValue.lean ====
/-
  The kernel's result array is the reference's function of the arguments.

  Region by region: a region's output array, entry (r, j), is a sum over k < 128 of products of its
  first operand's entry (r, k) — for the fused kernels after adding the bias's entry k and taking the
  maximum with zero — with the weight's entry (k, j) (the last region: its operand's entry plus the
  bias's entry j).  Its operands at the region's entry are the previous aggregation, the reshaped bias and
  a weight argument, and the reference's `dot_general` (or final add) of the same operands is the same sum,
  so each region's output is the reference's stage, and the aggregation after it the next stage.
-/
import proofs.«165635_j52836687675913_1_alg».proof.Proof.HostChain
import proofs.«165635_j52836687675913_1_alg».proof.Proof.RefStages
import proofs.«165635_j52836687675913_1_alg».proof.Proof.Region0
import proofs.«165635_j52836687675913_1_alg».proof.Proof.Region1
import proofs.«165635_j52836687675913_1_alg».proof.Proof.Region2
import proofs.«165635_j52836687675913_1_alg».proof.Proof.Region3

set_option maxRecDepth 16384

noncomputable section

namespace Cert.KernelIdeal.Result

open Idealize.ShloMosaic Idealize.ShloMosaic.TcCoe Idealize.SL.Sem Idealize.ShloMosaic.Pipeline Idealize.ShloMosaic.StableHlo
open Idealize.ShloMosaic.ValueIdx
open Cert.KernelIdeal Cert.KernelIdeal.Gen Cert.KernelIdeal.Chain
open Cert.ReferenceIdeal.Read (val_main_v1 val_main_v3 val_main_v4 val_main_v14 val_main_v19 val_main_v29 val_main_v34 val_main_v44 val_main_v47)

variable (m : (ℓ : Loc nD τ sig) → Buf (Elt Ideal) ℓ) (ρ : Dev nD → PrngReg) (c : Dev nD)

/-- Region 0's output is `x · W₁`. -/
theorem v4 : W2 m ρ c (Proc.devRef .tc main_v4) = val_main_v4 (F := Ideal) (m ((c.tc : Thread nD τ).loc main_arg0)) (m ((c.tc : Thread nD τ).loc main_arg2)) := by
  refine (W2_arr m ρ c 2).trans ?_
  refine (Region0.final_array (V1 m ρ) c).trans ?_
  rw [show V1 m ρ c main_arg0 = (m ((c.tc : Thread nD τ).loc main_arg0)) from W1_arg0 m ρ c, show V1 m ρ c main_arg2 = (m ((c.tc : Thread nD τ).loc main_arg2)) from W1_arg2 m ρ c]
  funext i
  obtain ⟨r, j, rfl⟩ : ∃ (r : Fin 100000) (j : Fin 128), i = ix2 r j := ⟨i 0, i 1, eq_ix2 i⟩
  exact (Cert.ReferenceIdeal.Stages.v4_at _ _ r j).symm

/-- Region 1's output is `max (agg₁ + b₁) 0 · W₂`. -/
theorem v16 : W4 m ρ c (Proc.devRef .tc main_v16) = val_main_v19 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W4_arr m ρ c 3).trans ?_
  funext i
  obtain ⟨r, j, rfl⟩ : ∃ (r : Fin 100000) (j : Fin 128), i = ix2 r j := ⟨i 0, i 1, eq_ix2 i⟩
  refine (Region1.final_of (V3 m ρ) c (val_main_v14 (F := Ideal) (m ((c.tc : Thread nD τ).loc main_arg0)) (m ((c.tc : Thread nD τ).loc main_arg1)) (m ((c.tc : Thread nD τ).loc main_arg2))) (V3 m ρ c main_v15) (m ((c.tc : Thread nD τ).loc main_arg4))
    (W3_v14 m ρ c (v4 m ρ c)) rfl (W3_arg4 m ρ c) r j).trans ?_
  rw [Cert.ReferenceIdeal.Stages.v19_at]
  refine Finset.sum_congr (M := EReal) rfl fun k _ => ?_
  rw [show V3 m ρ c main_v15 (ix2 (0 : Fin 1) k) = (m ((c.tc : Thread nD τ).loc main_arg3)) (ix1 k) from W3_v15 m ρ c k]

/-- Region 2's output is `max (agg₂ + b₂) 0 · W₃`. -/
theorem v28 : W6 m ρ c (Proc.devRef .tc main_v28) = val_main_v34 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W6_arr m ρ c 3).trans ?_
  funext i
  obtain ⟨r, j, rfl⟩ : ∃ (r : Fin 100000) (j : Fin 64), i = ix2 r j := ⟨i 0, i 1, eq_ix2 i⟩
  refine (Region2.final_of (V5 m ρ) c (val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (V5 m ρ c main_v27) (m ((c.tc : Thread nD τ).loc main_arg6))
    (W5_v26 m ρ c (v16 m ρ c)) rfl (W5_arg6 m ρ c) r j).trans ?_
  rw [Cert.ReferenceIdeal.Stages.v34_at]
  refine Finset.sum_congr (M := EReal) rfl fun k _ => ?_
  rw [show V5 m ρ c main_v27 (ix2 (0 : Fin 1) k) = (m ((c.tc : Thread nD τ).loc main_arg5)) (ix1 k) from W5_v27 m ρ c k]

/-- Region 3's output, the kernel's result, is `agg₃ + b₃`: the reference's result. -/
theorem v40 : W8 m ρ c (Proc.devRef .tc main_v40) = val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W8_arr m ρ c 2).trans ?_
  refine (Region3.final_array (V7 m ρ) c).trans ?_
  rw [show V7 m ρ c main_v38 = val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) from W7_v38 m ρ c (v28 m ρ c)]
  funext i
  obtain ⟨r, j, rfl⟩ : ∃ (r : Fin 100000) (j : Fin 64), i = ix2 r j := ⟨i 0, i 1, eq_ix2 i⟩
  refine (congrArg (fun t : EReal => val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix2 r j) + t) (W7_v39 m ρ c j)).trans ?_
  exact (Cert.ReferenceIdeal.Stages.v47_at _ _ _ _ _ _ _ _ r j).symm

end Cert.KernelIdeal.Result

end
-- ==== Proof.lean ====
/-
  A three-layer graph convolution (no normalisation): with `src`, `dst` the two rows of the edge list and
  `agg h` the array whose row `n` is the sum of the rows `h[src e]` over the edges `e` with `dst e = n`,

      out = agg (relu (agg (relu (agg (x · W₁) + b₁) · W₂) + b₂) · W₃) + b₃.

  The reference computes it with three `dot_general`s, the gathers and scatter-adds, and the bias adds and
  rectifiers as host operations.  The kernel computes the three matrix products in pipelined regions over
  ten blocks of 10000 rows, folds each `+ bₗ` and rectifier into the NEXT product's region (and the last
  `+ b₃` into a region of its own), and leaves the gathers and scatter-adds on the host, operation for
  operation as the reference has them.  Over the extended reals a change of float format is the identity,
  a region's matrix product into a zero accumulator and the host's `dot_general` are the same sum over the
  128 contracted entries, and `max (a + b) 0` is the same function wherever it is evaluated; so each
  region's output array is the reference's stage of the same name, each aggregation after it the next
  stage, and the two results are one function of the arguments.  No law that needs finiteness is used:
  the precondition is never opened.

  The three frames are the generated ones (the reference's: its generated run with the result dropped);
  the idealization rewrote nothing, so `preserves` is trivial.
-/
import proofs.«165635_j52836687675913_1_alg».proof.Defs
import proofs.«165635_j52836687675913_1_alg».proof.Proof.Gen.Kernel
import proofs.«165635_j52836687675913_1_alg».proof.Proof.Gen.Kernel.Skeleton
import proofs.«165635_j52836687675913_1_alg».proof.Proof.Gen.Kernel.Launch
import proofs.«165635_j52836687675913_1_alg».proof.Proof.Gen.Kernel.Points
import proofs.«165635_j52836687675913_1_alg».proof.Proof.Gen.Kernel.Frame
import proofs.«165635_j52836687675913_1_alg».proof.Proof.Gen.KernelIdeal
import proofs.«165635_j52836687675913_1_alg».proof.Proof.Gen.KernelIdeal.Skeleton
import proofs.«165635_j52836687675913_1_alg».proof.Proof.Gen.KernelIdeal.Launch
import proofs.«165635_j52836687675913_1_alg».proof.Proof.Gen.KernelIdeal.Points
import proofs.«165635_j52836687675913_1_alg».proof.Proof.Gen.KernelIdeal.Frame
import proofs.«165635_j52836687675913_1_alg».proof.Proof.Gen.ReferenceIdeal
import proofs.«165635_j52836687675913_1_alg».proof.Proof.Gen.Pre_finite_inputs
import proofs.«165635_j52836687675913_1_alg».proof.Proof.Gen.ReferenceIdeal.Run
import proofs.«165635_j52836687675913_1_alg».proof.Proof.Gen.ReferenceIdeal.Read
import proofs.«165635_j52836687675913_1_alg».proof.Proof.KernelRun
import proofs.«165635_j52836687675913_1_alg».proof.Proof.KernelValue
import Idealize.ShloMosaic.Adequacy
import Idealize.ShloMosaic.Init

noncomputable section

namespace Cert.Proof

open Idealize.ShloMosaic Idealize.SL.Sem

/-- The printed kernel runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is host operations only: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the reference's function of the arguments in their result buffers. -/
theorem algebraic : Cert.algebraic_KernelIdeal_ReferenceIdeal := by
  intro m ρ m' ρ' _ hagree
  refine ⟨fun c => Cert.ReferenceIdeal.Read.val_main_v47 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Result.v40 m ρ c), (h c).2⟩) (Cert.KernelIdeal.Run.run m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v47_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
